-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : IVec S100000 32) (main_arg1 : IVec S2x800000 32) (main_arg2 : FVec F S100000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 85
  | .vmem => 33
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S1x128, .f32⟩
  | .hbm, ⟨51, _⟩ => ⟨S100000x1, .f32⟩
  | .hbm, ⟨52, _⟩ => ⟨S100000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S100000x128, .f32⟩
  | .hbm, ⟨64, _⟩ => ⟨S800000x1, .i32⟩
  | .hbm, ⟨65, _⟩ => ⟨S100000x128, .f32⟩
  | .hbm, ⟨66, _⟩ => ⟨S1x128, .f32⟩
  | .hbm, ⟨67, _⟩ => ⟨S100000x1, .f32⟩
  | .hbm, ⟨68, _⟩ => ⟨S100000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S100000x128, .f32⟩
  | .hbm, ⟨80, _⟩ => ⟨S800000x1, .i32⟩
  | .hbm, ⟨81, _⟩ => ⟨S100000x128, .f32⟩
  | .hbm, ⟨82, _⟩ => ⟨S1x128, .f32⟩
  | .hbm, ⟨83, _⟩ => ⟨S100000x1, .f32⟩
  | .hbm, ⟨84, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x1, .f32⟩
  | .local _ .vmem, ⟨27, _⟩ => ⟨S10000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S100000x1_S100000x128_1_0_n_n_0_1_1128_wf : GatherDims.WF S100000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v28) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000 : Shape := ⟨1, ![100000]⟩
abbrev S2x800000 : Shape := ⟨2, ![2, 800000]⟩
abbrev S100000x128 : Shape := ⟨2, ![100000, 128]⟩
abbrev S128x128 : Shape := ⟨2, ![128, 128]⟩
abbrev S128 : Shape := ⟨1, ![128]⟩
abbrev S_ : Shape := ⟨0, ![]⟩
abbrev S100000x1 : Shape := ⟨2, ![100000, 1]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S100000x128, .f32⟩
  | .hbm, ⟨48, _⟩ => ⟨S800000x1, .i32⟩
  | .hbm, ⟨49, _⟩ => ⟨S100000x128, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S128x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S100000x128, .f32⟩
  | .hbm, ⟨75, _⟩ => ⟨S800000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S100000x128, .f32⟩
  | .hbm, ⟨102, _⟩ => ⟨S800000x1, .i32⟩
  | .hbm, ⟨103, _⟩ => ⟨S100000x128, .f32⟩
  | .hbm, ⟨104, _⟩ => ⟨S100000x1, .f32⟩
  | .hbm, ⟨105, _⟩ => ⟨S100000x128, .f32⟩
  | .hbm, ⟨106, _⟩ => ⟨S100000x128, .f32⟩
  | .hbm, ⟨107, _⟩ => ⟨S128x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call1_cst : Ref sig .tc := ⟨.hbm, 88, rfl⟩
abbrev main_call1_v0 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S100000x1_S100000x128_1_0_n_n_0_1_1128_wf : GatherDims.WF S100000x128 S100000x1 S100000x128 [1] [0] [] [0] [] 1 ![1, 128]
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its result named.

  The program is three launches among stretches of host operations. Its run ends with every buffer that outlives the
  launches at the contents the last boundary of the run gives it: the host stretches' results as their operations'
  values, each launch's result array as the fold of its blocks' write-backs. So the result buffer ends at that last
  boundary's contents of it, and the twelve argument arrays end as they were launched. (The other modules read that
  boundary value back to the arguments.)
-/
import proofs.«124701_j35802847379700_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it, and each argument array ends as launched. -/
theorem run : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunValue

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«124701_j35802847379700_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.SageDense.lean ====
/-
  One dense step of a mean-aggregating graph layer, over the extended reals.

  For `n` nodes with 128 features each: `agg` holds, per node, the sum of its in-neighbours' feature rows, `h` the
  nodes' own feature rows, `inv` (a column) the reciprocal of the in-degree, `Wl` and `Wr` two 128 by 128 weight
  matrices and `bl` (a row) a bias. The step's entry (p, q) is

      (Σ_k (agg (p, k) · inv (p, 0)) · Wl (q, k)  +  bl (0, q))  +  Σ_k h (p, k) · Wr (q, k),

  that is, (mean of the neighbours) · Wlᵀ + bl + h · Wrᵀ; `layer true` clamps it below at 0, `layer false` leaves it.
  Row p of the result depends on row p of `agg`, `h` and `inv` only, so the step of a block of rows is the block of
  the step (`pre_rows`). Only commutative-monoid sums and the order of two additions are used: nothing here needs an
  entry to be finite.
-/
import Idealize.ShloMosaic.Lib.ValueLayout
import proofs.«124701_j35802847379700_2_alg».proof.Proof.LibMatmulPlain
import proofs.«124701_j35802847379700_2_alg».proof.Proof.LibHostDotPlain
import proofs.«124701_j35802847379700_2_alg».proof.Proof.LibKeepdims

noncomputable section

open scoped BigOperators

namespace Cert.SageDense

open Idealize.ShloMosaic Idealize.ShloMosaic.ValueIdx

/-- An `a` by `b` array of extended reals. -/
abbrev Mat (a b : ℕ) : Type := (⟨2, ![a, b]⟩ : Shape).Idx → EReal

/-- The step's entry (p, q) before the clamp: (Σ_k (agg (p,k) · inv (p,0)) · Wl (q,k) + bl (0,q)) + Σ_k h (p,k) · Wr (q,k). -/
def preAt (n : ℕ) (agg h : Mat n 128) (inv : Mat n 1) (Wl : Mat 128 128) (bl : Mat 1 128) (Wr : Mat 128 128)
    (p : Fin n) (q : Fin 128) : EReal :=
  ((∑ k : Fin 128, (agg (ix2 p k) * inv (ix2 p (0 : Fin 1))) * Wl (ix2 q k)) + bl (ix2 (0 : Fin 1) q))
    + ∑ k : Fin 128, h (ix2 p k) * Wr (ix2 q k)

/-- The step before the clamp, as an array. -/
def pre (n : ℕ) (agg h : Mat n 128) (inv : Mat n 1) (Wl : Mat 128 128) (bl : Mat 1 128) (Wr : Mat 128 128) : Mat n 128 :=
  fun j => preAt n agg h inv Wl bl Wr (j 0) (j 1)

/-- The matrix unit's plain product into a zero accumulator at the entry (p, q): the row-by-column sum. -/
theorem matmul_zero_pq {M K N : ℕ} {φ₁ φ₂ : FTy} (prec : Option ContractPrecision) (A : FVec Ideal ⟨2, ![M, K]⟩ φ₁)
    (B : FVec Ideal ⟨2, ![K, N]⟩ φ₂) (p : Fin M) (q : Fin N) :
    matmul (DotDims.plain M K N) prec A B (constant (F := Ideal) ⟨2, ![M, N]⟩ .f32 0x00000000#32) (ix2 p q)
      = ∑ k : Fin K, A (ix2 p k) * B (ix2 k q) :=
  MatmulPlain.matmul_zero_apply prec A B (ix2 p q)

/-- The host's plain product at the entry (p, q): the row-by-column sum. -/
theorem dotGeneral_pq {M K N : ℕ} {φ₁ φ₂ : FTy} (prec : Option ContractPrecision) (A : FVec Ideal ⟨2, ![M, K]⟩ φ₁)
    (B : FVec Ideal ⟨2, ![K, N]⟩ φ₂) (p : Fin M) (q : Fin N) :
    Host.dotGeneral (F := Ideal) (DotDims.plain M K N) prec A B (ix2 p q) = ∑ k : Fin K, A (ix2 p k) * B (ix2 k q) :=
  HostDotPlain.dotGeneral_apply prec A B (ix2 p q)

/-- The step: clamped below at 0 when `relu`, as it is otherwise. -/
def layer (relu : Bool) (n : ℕ) (agg h : Mat n 128) (inv : Mat n 1) (Wl : Mat 128 128) (bl : Mat 1 128) (Wr : Mat 128 128) :
    Mat n 128 :=
  fun j => if relu then max (pre n agg h inv Wl bl Wr j) 0 else pre n agg h inv Wl bl Wr j

/-- Row `p` of the step reads row `p` of the three tall operands only: if a block's rows are the rows `f p` of the
    arrays, the block's step at (p, q) is the arrays' step at (f p, q). -/
theorem pre_rows {n n' : ℕ} (f : Fin n → Fin n') (agg h : Mat n 128) (inv : Mat n 1) (agg' h' : Mat n' 128) (inv' : Mat n' 1)
    (Wl : Mat 128 128) (bl : Mat 1 128) (Wr : Mat 128 128)
    (hagg : ∀ p k, agg (ix2 p k) = agg' (ix2 (f p) k)) (hh : ∀ p k, h (ix2 p k) = h' (ix2 (f p) k))
    (hinv : ∀ p, inv (ix2 p (0 : Fin 1)) = inv' (ix2 (f p) (0 : Fin 1))) (p : Fin n) (q : Fin 128) :
    pre n agg h inv Wl bl Wr (ix2 p q) = pre n' agg' h' inv' Wl bl Wr (ix2 (f p) q) := by
  show preAt n agg h inv Wl bl Wr p q = preAt n' agg' h' inv' Wl bl Wr (f p) q
  unfold preAt
  rw [hinv p]
  congr 1
  · congr 1
    exact Finset.sum_congr rfl fun k _ => by rw [hagg p k]
  · exact Finset.sum_congr rfl fun k _ => by rw [hh p k]

theorem layer_rows {n n' : ℕ} (relu : Bool) (f : Fin n → Fin n') (agg h : Mat n 128) (inv : Mat n 1) (agg' h' : Mat n' 128)
    (inv' : Mat n' 1) (Wl : Mat 128 128) (bl : Mat 1 128) (Wr : Mat 128 128)
    (hagg : ∀ p k, agg (ix2 p k) = agg' (ix2 (f p) k)) (hh : ∀ p k, h (ix2 p k) = h' (ix2 (f p) k))
    (hinv : ∀ p, inv (ix2 p (0 : Fin 1)) = inv' (ix2 (f p) (0 : Fin 1))) (p : Fin n) (q : Fin 128) :
    layer relu n agg h inv Wl bl Wr (ix2 p q) = layer relu n' agg' h' inv' Wl bl Wr (ix2 (f p) q) := by
  unfold layer
  rw [pre_rows f agg h inv agg' h' inv' Wl bl Wr hagg hh hinv p q]

/-- The matrix unit's form of the step: the scaled neighbour sums times `Wl` transposed into a zero accumulator,
    plus the bias row broadcast down the rows, plus `h` times `Wr` transposed into a zero accumulator. -/
theorem tile_eq {n : ℕ} (prec : Option ContractPrecision)
    (x0 x1 : FVec Ideal ⟨2, ![n, 128]⟩ .f32) (x2 : FVec Ideal ⟨2, ![n, 1]⟩ .f32)
    (x3 x5 : FVec Ideal ⟨2, ![128, 128]⟩ .f32) (x4 : FVec Ideal ⟨2, ![1, 128]⟩ .f32)
    (hc : (⟨2, ![n, 1]⟩ : Shape).Broadcasts ⟨2, ![n, 128]⟩) (hr : (⟨2, ![1, 128]⟩ : Shape).Broadcasts ⟨2, ![n, 128]⟩)
    (ht : (⟨2, ![128, 128]⟩ : Shape).Transposes [1, 0] ⟨2, ![128, 128]⟩) :
    addf (addf (matmul (DotDims.plain n 128 128) prec (mulf x0 (broadcastTo ⟨2, ![n, 128]⟩ x2 hc))
          (transpose ⟨2, ![128, 128]⟩ [1, 0] x3 ht) (constant (F := Ideal) ⟨2, ![n, 128]⟩ .f32 0x00000000#32))
        (broadcastTo ⟨2, ![n, 128]⟩ x4 hr))
      (matmul (DotDims.plain n 128 128) prec x1 (transpose ⟨2, ![128, 128]⟩ [1, 0] x5 ht)
        (constant (F := Ideal) ⟨2, ![n, 128]⟩ .f32 0x00000000#32))
    = pre n x0 x1 x2 x3 x4 x5 := by
  funext j
  obtain ⟨p, q, rfl⟩ : ∃ (p : Fin n) (q : Fin 128), j = ix2 p q := ⟨j 0, j 1, eq_ix2 j⟩
  show _ = preAt n x0 x1 x2 x3 x4 x5 p q
  rw [addf_apply, addf_apply, matmul_zero_pq, matmul_zero_pq, broadcastTo_1b_ab_apply]
  unfold preAt
  congr 1
  · congr 1
    refine Finset.sum_congr rfl fun k _ => ?_
    rw [mulf_apply, Keepdims.broadcastTo_a1_ab_apply, transpose_ix2_apply]
  · refine Finset.sum_congr rfl fun k _ => ?_
    rw [transpose_ix2_apply]

/-- A length-`n` vector as a column: entry (p, 0) is the vector's entry p. -/
def colOf {n : ℕ} (v : (⟨1, ![n]⟩ : Shape).Idx → EReal) : Mat n 1 := fun j => v (ix1 (j 0))

/-- A length-`b` vector as a row: entry (0, q) is the vector's entry q. -/
def rowOf {b : ℕ} (v : (⟨1, ![b]⟩ : Shape).Idx → EReal) : Mat 1 b := fun j => v (ix1 (j 1))

/-- A vector reshaped to a column is `colOf` of it. -/
theorem shapeCast_col {n : ℕ} (v : (⟨1, ![n]⟩ : Shape).Idx → EReal) (h : (⟨1, ![n]⟩ : Shape).ShapeCasts ⟨2, ![n, 1]⟩) :
    shapeCast ⟨2, ![n, 1]⟩ v h = colOf v := by
  funext j
  obtain ⟨p, u, rfl⟩ : ∃ (p : Fin n) (u : Fin 1), j = ix2 p u := ⟨j 0, j 1, eq_ix2 j⟩
  exact Keepdims.shapeCast_a_a1_apply v h p u

/-- A vector reshaped to a row is `rowOf` of it. -/
theorem shapeCast_row {b : ℕ} (v : (⟨1, ![b]⟩ : Shape).Idx → EReal) (h : (⟨1, ![b]⟩ : Shape).ShapeCasts ⟨2, ![1, b]⟩) :
    shapeCast ⟨2, ![1, b]⟩ v h = rowOf v := by
  funext j
  obtain ⟨u, q, rfl⟩ : ∃ (u : Fin 1) (q : Fin b), j = ix2 u q := ⟨j 0, j 1, eq_ix2 j⟩
  exact shapeCast_a_1a_apply v h u q

/-- The host's form of the step: the neighbour sums scaled by the reciprocal degree broadcast along the features
    (vector → column → matrix), times `Wl` transposed, plus the bias broadcast down the rows (vector → row → matrix),
    plus `h` times `Wr` transposed. -/
theorem host_eq {n : ℕ} (prec : Option ContractPrecision)
    (agg h : FVec Ideal ⟨2, ![n, 128]⟩ .f32) (inv : FVec Ideal ⟨1, ![n]⟩ .f32)
    (Wl Wr : FVec Ideal ⟨2, ![128, 128]⟩ .f32) (bl : FVec Ideal ⟨1, ![128]⟩ .f32)
    (hcol : (⟨1, ![n]⟩ : Shape).BroadcastsInDim ⟨2, ![n, 1]⟩ ![0])
    (hcolb : (⟨2, ![n, 1]⟩ : Shape).BroadcastsInDim ⟨2, ![n, 128]⟩ ![0, 1])
    (hrow : (⟨1, ![128]⟩ : Shape).BroadcastsInDim ⟨2, ![1, 128]⟩ ![1])
    (hrowb : (⟨2, ![1, 128]⟩ : Shape).BroadcastsInDim ⟨2, ![n, 128]⟩ ![0, 1])
    (ht : (⟨2, ![128, 128]⟩ : Shape).Transposes [1, 0] ⟨2, ![128, 128]⟩) :
    addf (addf (Host.dotGeneral (F := Ideal) (DotDims.plain n 128 128) prec
          (mulf agg (broadcastInDim ⟨2, ![n, 128]⟩ ![0, 1] hcolb (broadcastInDim ⟨2, ![n, 1]⟩ ![0] hcol inv)))
          (transpose ⟨2, ![128, 128]⟩ [1, 0] Wl ht))
        (broadcastInDim ⟨2, ![n, 128]⟩ ![0, 1] hrowb (broadcastInDim ⟨2, ![1, 128]⟩ ![1] hrow bl)))
      (Host.dotGeneral (F := Ideal) (DotDims.plain n 128 128) prec h (transpose ⟨2, ![128, 128]⟩ [1, 0] Wr ht))
    = pre n agg h (colOf inv) Wl (rowOf bl) Wr := by
  funext j
  obtain ⟨p, q, rfl⟩ : ∃ (p : Fin n) (q : Fin 128), j = ix2 p q := ⟨j 0, j 1, eq_ix2 j⟩
  show _ = preAt n agg h (colOf inv) Wl (rowOf bl) Wr p q
  rw [addf_apply, addf_apply, dotGeneral_pq, dotGeneral_pq]
  have hb : broadcastInDim ⟨2, ![n, 128]⟩ ![0, 1] hrowb (broadcastInDim ⟨2, ![1, 128]⟩ ![1] hrow bl) (ix2 p q)
      = rowOf bl (ix2 (0 : Fin 1) q) := by
    rw [broadcastInDim_apply ![0, 1] hrowb _ (ix2 p q) (ix2 (0 : Fin 1) q) (fun a => by
      match a with
      | ⟨0, _⟩ => rfl
      | ⟨1, _⟩ => rfl)]
    exact broadcastInDim_apply ![1] hrow bl (ix2 (0 : Fin 1) q) (ix1 q) (fun a => by
      match a with
      | ⟨0, _⟩ => rfl)
  have hi : ∀ k : Fin 128, broadcastInDim ⟨2, ![n, 128]⟩ ![0, 1] hcolb (broadcastInDim ⟨2, ![n, 1]⟩ ![0] hcol inv) (ix2 p k)
      = colOf inv (ix2 p (0 : Fin 1)) := fun k => by
    rw [broadcastInDim_apply ![0, 1] hcolb _ (ix2 p k) (ix2 p (0 : Fin 1)) (fun a => by
      match a with
      | ⟨0, _⟩ =>
        show p.val = if n = 1 then 0 else p.val
        split
        · have := p.isLt; omega
        · rfl
      | ⟨1, _⟩ => rfl)]
    exact broadcastInDim_apply ![0] hcol inv (ix2 p (0 : Fin 1)) (ix1 p) (fun a => by
      match a with
      | ⟨0, _⟩ =>
        show p.val = if n = 1 then 0 else p.val
        split
        · have := p.isLt; omega
        · rfl)
  rw [hb]
  unfold preAt
  congr 1
  · congr 1
    refine Finset.sum_congr rfl fun k _ => ?_
    rw [mulf_apply, hi k, transpose_ix2_apply]
  · refine Finset.sum_congr rfl fun k _ => ?_
    rw [transpose_ix2_apply]

end Cert.SageDense

end
-- ==== Proof.KernelTile.lean ====
/-
  The kernel's body on one block of 10000 nodes is the dense step of that block.

  Each of the three launches runs the same body on a block of 10000 rows: it scales the block of neighbour sums by the
  block of reciprocal degrees (a column broadcast along the 128 features), multiplies by `Wl` transposed on the matrix
  unit into a zero accumulator, adds the bias row broadcast down the rows, adds the block of node features times `Wr`
  transposed, and — in the first two launches only — takes the maximum with 0. At the extended reals that value is
  `SageDense.layer` of the block: a product into a zero accumulator is the plain row-by-column sum, and the
  identity casts are the identity.
-/
import proofs.«124701_j35802847379700_2_alg».proof.Proof.Gen.KernelIdeal.Skeleton
import proofs.«124701_j35802847379700_2_alg».proof.Proof.SageDense
import Idealize.ShloMosaic.Lib.Pipeline.Value

noncomputable section

namespace Cert.KernelIdeal.Tile

open Idealize.ShloMosaic Idealize.ShloMosaic.ValueIdx Cert.KernelIdeal Cert.SageDense
open Cert.KernelIdeal.Facts₀ Cert.KernelIdeal.Facts

/-- The sum the three bodies share: scaled neighbour sums times `Wl`ᵀ, plus the bias, plus the features times `Wr`ᵀ. -/
theorem body_sum (v0 v6 : FVec Ideal S10000x128 .f32) (v2 : FVec Ideal S10000x1 .f32) (v8 v11 : FVec Ideal S128x128 .f32)
    (v14 : FVec Ideal S1x128 .f32) :
    addf (addf (matmul (F := Ideal) dot_S10000x128_S128x128_S10000x128_1_0_0_1_n_n (some .fp32)
          (mulf v0 (broadcastTo S10000x128 v2 broadcasts_S10000x1_S10000x128))
          (transpose S128x128 [1, 0] v8 transposes_S128x128_p1_0_S128x128) (constant S10000x128 .f32 0x00000000#32))
        (broadcastTo S10000x128 v14 broadcasts_S1x128_S10000x128))
      (matmul (F := Ideal) dot_S10000x128_S128x128_S10000x128_1_0_0_1_n_n (some .fp32) v6
        (transpose S128x128 [1, 0] v11 transposes_S128x128_p1_0_S128x128) (constant S10000x128 .f32 0x00000000#32))
    = pre 10000 v0 v6 v2 v8 v14 v11 :=
  tile_eq (n := 10000) (some .fp32) v0 v6 v2 v8 v11 v14 broadcasts_S10000x1_S10000x128 broadcasts_S1x128_S10000x128
    transposes_S128x128_p1_0_S128x128

/-- The first launch's stored value: the step of the block, clamped below at 0. -/
theorem pay0 (v0 v6 : FVec Ideal S10000x128 .f32) (v2 : FVec Ideal S10000x1 .f32) (v8 v11 : FVec Ideal S128x128 .f32)
    (v14 : FVec Ideal S1x128 .f32) :
    Gen.k0_pay1 (F := Ideal) v0 v2 v6 v8 v11 v14 = layer true 10000 v0 v6 v2 v8 v14 v11 := by
  unfold Gen.k0_pay1
  simp only [shapeCast_self]
  rw [body_sum]
  funext j
  show max (pre 10000 v0 v6 v2 v8 v14 v11 j) (Ideal.ofBits .f32 0x00000000#32) = _
  rw [Ideal.ofBits_zero_f32]
  rfl

/-- The second launch's stored value: the same. -/
theorem pay1 (v0 v6 : FVec Ideal S10000x128 .f32) (v2 : FVec Ideal S10000x1 .f32) (v8 v11 : FVec Ideal S128x128 .f32)
    (v14 : FVec Ideal S1x128 .f32) :
    Gen.k1_pay1 (F := Ideal) v0 v2 v6 v8 v11 v14 = layer true 10000 v0 v6 v2 v8 v14 v11 := by
  unfold Gen.k1_pay1
  simp only [shapeCast_self]
  rw [body_sum]
  funext j
  show max (pre 10000 v0 v6 v2 v8 v14 v11 j) (Ideal.ofBits .f32 0x00000000#32) = _
  rw [Ideal.ofBits_zero_f32]
  rfl

/-- The third launch's stored value: the step of the block, not clamped. -/
theorem pay2 (v0 v6 : FVec Ideal S10000x128 .f32) (v2 : FVec Ideal S10000x1 .f32) (v8 v11 : FVec Ideal S128x128 .f32)
    (v14 : FVec Ideal S1x128 .f32) :
    Gen.k2_pay1 (F := Ideal) v0 v2 v6 v8 v11 v14 = layer false 10000 v0 v6 v2 v8 v14 v11 := by
  unfold Gen.k2_pay1
  simp only [shapeCast_self]
  rw [body_sum]
  rfl

end Cert.KernelIdeal.Tile

end
-- ==== Proof.RegionValue.lean ====
/-
  Each launch's result array is the dense step of the arrays it is launched on.

  A launch walks ten grid points; at point `t` its three tall operands (the neighbour sums, the node features and
  the column of reciprocal degrees) are staged as rows `10000 t … 10000 t + 9999`, the two weight matrices and the bias
  row whole, and the body's value on those blocks is written back as rows `10000 t …` of the result. The body's value
  is the dense step of the blocks, and the step of a block of rows reads those rows only, so each write-back is the
  block of ONE array, `SageDense.layer` of the arrays as the launch finds them; the ten blocks tile the 100000 rows.
  Everything is stated at arbitrary contents `V` of the buffers at the launch's entry.
-/
import proofs.«124701_j35802847379700_2_alg».proof.Proof.Gen.KernelIdeal.Frame
import proofs.«124701_j35802847379700_2_alg».proof.Proof.KernelTile
import Idealize.ShloMosaic.Lib.Pipeline.Value

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SageDense

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The index maps over the grid: the three tall operands and the result move one block of 10000 rows per point; the
    weights and the bias stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `10000 t + p` of the array. -/
def row0 (t : Fin cfg0.N) (p : Fin 10000) : Fin 100000 :=
  ⟨t.val * 10000 + p.val, by have := t.isLt; have := p.isLt; have hN : cfg0.N = 10 := N_0; omega⟩

/-- The block of neighbour sums at point `t`: rows `10000 t …` of the array. -/
theorem blk0_0 (c : Dev nD) (t : Fin cfg0.N) (p : Fin 10000) (k : Fin 128) :
    (iblk0 V c 0 t : Mat 10000 128) (ix2 p k) = (V c main_v28 : Mat 100000 128) (ix2 (row0 t p) k) := by
  unfold iblk0
  rw [View.read_apply]
  show V c main_v28 _ = V c main_v28 _
  congr 1
  funext a
  apply Fin.ext
  match a with
  | ⟨0, _⟩ => show win0_0.index t (0 : Fin 2) * 10000 + 1 * p.val = t.val * 10000 + p.val; rw [(idx0 t).1]; omega
  | ⟨1, _⟩ => show win0_0.index t (1 : Fin 2) * 128 + 1 * k.val = k.val; rw [(idx0 t).2.1]; omega

/-- The block of node features at point `t`. -/
theorem blk0_1 (c : Dev nD) (t : Fin cfg0.N) (p : Fin 10000) (k : Fin 128) :
    (iblk0 V c 1 t : Mat 10000 128) (ix2 p k) = (V c main_v6 : Mat 100000 128) (ix2 (row0 t p) k) := by
  unfold iblk0
  rw [View.read_apply]
  show V c main_v6 _ = V c main_v6 _
  congr 1
  funext a
  apply Fin.ext
  match a with
  | ⟨0, _⟩ => show win0_1.index t (0 : Fin 2) * 10000 + 1 * p.val = t.val * 10000 + p.val; rw [(idx0 t).2.2.1]; omega
  | ⟨1, _⟩ => show win0_1.index t (1 : Fin 2) * 128 + 1 * k.val = k.val; rw [(idx0 t).2.2.2.1]; omega

/-- The block of reciprocal degrees at point `t`. -/
theorem blk0_2 (c : Dev nD) (t : Fin cfg0.N) (p : Fin 10000) :
    (iblk0 V c 2 t : Mat 10000 1) (ix2 p (0 : Fin 1)) = (V c main_v30 : Mat 100000 1) (ix2 (row0 t p) (0 : Fin 1)) := by
  unfold iblk0
  rw [View.read_apply]
  show V c main_v30 _ = V c main_v30 _
  congr 1
  funext a
  apply Fin.ext
  match a with
  | ⟨0, _⟩ => show win0_2.index t (0 : Fin 2) * 10000 + 1 * p.val = t.val * 10000 + p.val; rw [(idx0 t).2.2.2.2.1]; omega
  | ⟨1, _⟩ => show win0_2.index t (1 : Fin 2) * 1 + 1 * 0 = 0; rw [(idx0 t).2.2.2.2.2.1]

/-- The left weights' block is the whole matrix at every point. -/
theorem blk0_3 (c : Dev nD) (t : Fin cfg0.N) : (iblk0 V c 3 t : Mat 128 128) = V c main_arg3 := by
  funext y
  unfold iblk0
  rw [View.read_apply]
  show V c main_arg3 _ = V c main_arg3 y
  congr 1
  funext a
  apply Fin.ext
  match a with
  | ⟨0, _⟩ => show win0_3.index t (0 : Fin 2) * 128 + 1 * (y 0).val = (y 0).val; rw [(idx0 t).2.2.2.2.2.2.1]; omega
  | ⟨1, _⟩ => show win0_3.index t (1 : Fin 2) * 128 + 1 * (y 1).val = (y 1).val; rw [(idx0 t).2.2.2.2.2.2.2.1]; omega

/-- The bias row's block is the whole row at every point. -/
theorem blk0_4 (c : Dev nD) (t : Fin cfg0.N) : (iblk0 V c 4 t : Mat 1 128) = V c main_v29 := by
  funext y
  unfold iblk0
  rw [View.read_apply]
  show V c main_v29 _ = V c main_v29 y
  congr 1
  funext a
  apply Fin.ext
  match a with
  | ⟨0, _⟩ => show win0_4.index t (0 : Fin 2) * 1 + 1 * (y 0).val = (y 0).val; rw [(idx0 t).2.2.2.2.2.2.2.2.1]; omega
  | ⟨1, _⟩ => show win0_4.index t (1 : Fin 2) * 128 + 1 * (y 1).val = (y 1).val; rw [(idx0 t).2.2.2.2.2.2.2.2.2.1]; omega

/-- The right weights' block is the whole matrix at every point. -/
theorem blk0_5 (c : Dev nD) (t : Fin cfg0.N) : (iblk0 V c 5 t : Mat 128 128) = V c main_arg5 := by
  funext y
  unfold iblk0
  rw [View.read_apply]
  show V c main_arg5 _ = V c main_arg5 y
  congr 1
  funext a
  apply Fin.ext
  match a with
  | ⟨0, _⟩ => show win0_5.index t (0 : Fin 2) * 128 + 1 * (y 0).val = (y 0).val; rw [(idx0 t).2.2.2.2.2.2.2.2.2.2.1]; omega
  | ⟨1, _⟩ => show win0_5.index t (1 : Fin 2) * 128 + 1 * (y 1).val = (y 1).val; rw [(idx0 t).2.2.2.2.2.2.2.2.2.2.2.1]; omega

/-- What the launch's result array holds in the end, as one function of the arrays the launch finds. -/
abbrev res0 (c : Dev nD) : Mat 100000 128 :=
  layer true 100000 (V c main_v28) (V c main_v6) (V c main_v30) (V c main_arg3) (V c main_v29) (V c main_arg5)

/-- What point `t` writes back is block `t` of that function: the body's value on the blocks is the step of the
    blocks, and the step of rows `10000 t …` reads those rows only. -/
theorem flushed0 (c : Dev nD) (t : Fin cfg0.N) :
    (dat0 V c).flushed 6 t = ((cfg0.win 6).blk t).view.read (Elt Ideal) (res0 V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  rw [Tile.pay0, blk0_3 V c t, blk0_4 V c t, blk0_5 V c t]
  funext y
  show layer true 10000 (iblk0 V c 0 t) (iblk0 V c 1 t) (iblk0 V c 2 t) (V c main_arg3) (V c main_v29) (V c main_arg5) (ix2 (y 0) (y 1))
    = res0 V c (((cfg0.win 6).blk t).view.emb y)
  have he : ((cfg0.win 6).blk t).view.emb y = ix2 (row0 t (y 0)) (y 1) := by
    funext a
    apply Fin.ext
    match a with
    | ⟨0, _⟩ => show win0_6.index t (0 : Fin 2) * 10000 + 1 * (y 0).val = t.val * 10000 + (y 0).val; rw [(idx0 t).2.2.2.2.2.2.2.2.2.2.2.2.1]; omega
    | ⟨1, _⟩ => show win0_6.index t (1 : Fin 2) * 128 + 1 * (y 1).val = (y 1).val; rw [(idx0 t).2.2.2.2.2.2.2.2.2.2.2.2.2]; omega
  rw [he]
  exact layer_rows true (row0 t) _ _ _ _ _ _ _ _ _ (blk0_0 V c t) (blk0_1 V c t) (blk0_2 V c t) (y 0) (y 1)

/-- The ten blocks cover the result array: row `r` is in the block of point `r / 10000`. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  have ht : (i 0).val / 10000 < cfg0.N := by omega
  refine ⟨⟨(i 0).val / 10000, ht⟩, flush0_6 _, ?_⟩
  show i ∈ ((View.whole main_v31).slice (win0_6.rect ⟨(i 0).val / 10000, ht⟩)).set
  rw [View.set_slice_whole, Rect.mem_set_unit]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [(idx0 ⟨(i 0).val / 10000, ht⟩).2.2.2.2.2.2.2.2.2.2.2.2.1]
    show (i 0).val / 10000 * 10000 ≤ (i 0).val ∧ (i 0).val < (i 0).val / 10000 * 10000 + 10000
    omega
  | ⟨1, _⟩ =>
    show win0_6.index ⟨(i 0).val / 10000, ht⟩ (1 : Fin 2) * 128 ≤ (i 1).val
      ∧ (i 1).val < win0_6.index ⟨(i 0).val / 10000, ht⟩ (1 : Fin 2) * 128 + 128
    rw [(idx0 ⟨(i 0).val / 10000, ht⟩).2.2.2.2.2.2.2.2.2.2.2.2.2]
    omega

/-- The result array after the launch is the step of the arrays the launch finds. -/
theorem final0 (c : Dev nD) : (dat0 V c).arrAt 6 cfg0.N = res0 V c :=
  (dat0 V c).arrAt_eq_of_cover 6 (res0 V c) (fun t _ => flushed0 V c t) cover0

/-! ## Launch 1 -/

/-- The index maps over the grid: the three tall operands and the result move one block of 10000 rows per point; the
    weights and the bias stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `10000 t + p` of the array. -/
def row1 (t : Fin cfg1.N) (p : Fin 10000) : Fin 100000 :=
  ⟨t.val * 10000 + p.val, by have := t.isLt; have := p.isLt; have hN : cfg1.N = 10 := N_1; omega⟩

/-- The block of neighbour sums at point `t`: rows `10000 t …` of the array. -/
theorem blk1_0 (c : Dev nD) (t : Fin cfg1.N) (p : Fin 10000) (k : Fin 128) :
    (iblk1 V c 0 t : Mat 10000 128) (ix2 p k) = (V c main_v41 : Mat 100000 128) (ix2 (row1 t p) k) := by
  unfold iblk1
  rw [View.read_apply]
  show V c main_v41 _ = V c main_v41 _
  congr 1
  funext a
  apply Fin.ext
  match a with
  | ⟨0, _⟩ => show win1_0.index t (0 : Fin 2) * 10000 + 1 * p.val = t.val * 10000 + p.val; rw [(idx1 t).1]; omega
  | ⟨1, _⟩ => show win1_0.index t (1 : Fin 2) * 128 + 1 * k.val = k.val; rw [(idx1 t).2.1]; omega

/-- The block of node features at point `t`. -/
theorem blk1_1 (c : Dev nD) (t : Fin cfg1.N) (p : Fin 10000) (k : Fin 128) :
    (iblk1 V c 1 t : Mat 10000 128) (ix2 p k) = (V c main_v31 : Mat 100000 128) (ix2 (row1 t p) k) := by
  unfold iblk1
  rw [View.read_apply]
  show V c main_v31 _ = V c main_v31 _
  congr 1
  funext a
  apply Fin.ext
  match a with
  | ⟨0, _⟩ => show win1_1.index t (0 : Fin 2) * 10000 + 1 * p.val = t.val * 10000 + p.val; rw [(idx1 t).2.2.1]; omega
  | ⟨1, _⟩ => show win1_1.index t (1 : Fin 2) * 128 + 1 * k.val = k.val; rw [(idx1 t).2.2.2.1]; omega

/-- The block of reciprocal degrees at point `t`. -/
theorem blk1_2 (c : Dev nD) (t : Fin cfg1.N) (p : Fin 10000) :
    (iblk1 V c 2 t : Mat 10000 1) (ix2 p (0 : Fin 1)) = (V c main_v43 : Mat 100000 1) (ix2 (row1 t p) (0 : Fin 1)) := by
  unfold iblk1
  rw [View.read_apply]
  show V c main_v43 _ = V c main_v43 _
  congr 1
  funext a
  apply Fin.ext
  match a with
  | ⟨0, _⟩ => show win1_2.index t (0 : Fin 2) * 10000 + 1 * p.val = t.val * 10000 + p.val; rw [(idx1 t).2.2.2.2.1]; omega
  | ⟨1, _⟩ => show win1_2.index t (1 : Fin 2) * 1 + 1 * 0 = 0; rw [(idx1 t).2.2.2.2.2.1]

/-- The left weights' block is the whole matrix at every point. -/
theorem blk1_3 (c : Dev nD) (t : Fin cfg1.N) : (iblk1 V c 3 t : Mat 128 128) = V c main_arg6 := by
  funext y
  unfold iblk1
  rw [View.read_apply]
  show V c main_arg6 _ = V c main_arg6 y
  congr 1
  funext a
  apply Fin.ext
  match a with
  | ⟨0, _⟩ => show win1_3.index t (0 : Fin 2) * 128 + 1 * (y 0).val = (y 0).val; rw [(idx1 t).2.2.2.2.2.2.1]; omega
  | ⟨1, _⟩ => show win1_3.index t (1 : Fin 2) * 128 + 1 * (y 1).val = (y 1).val; rw [(idx1 t).2.2.2.2.2.2.2.1]; omega

/-- The bias row's block is the whole row at every point. -/
theorem blk1_4 (c : Dev nD) (t : Fin cfg1.N) : (iblk1 V c 4 t : Mat 1 128) = V c main_v42 := by
  funext y
  unfold iblk1
  rw [View.read_apply]
  show V c main_v42 _ = V c main_v42 y
  congr 1
  funext a
  apply Fin.ext
  match a with
  | ⟨0, _⟩ => show win1_4.index t (0 : Fin 2) * 1 + 1 * (y 0).val = (y 0).val; rw [(idx1 t).2.2.2.2.2.2.2.2.1]; omega
  | ⟨1, _⟩ => show win1_4.index t (1 : Fin 2) * 128 + 1 * (y 1).val = (y 1).val; rw [(idx1 t).2.2.2.2.2.2.2.2.2.1]; omega

/-- The right weights' block is the whole matrix at every point. -/
theorem blk1_5 (c : Dev nD) (t : Fin cfg1.N) : (iblk1 V c 5 t : Mat 128 128) = V c main_arg8 := by
  funext y
  unfold iblk1
  rw [View.read_apply]
  show V c main_arg8 _ = V c main_arg8 y
  congr 1
  funext a
  apply Fin.ext
  match a with
  | ⟨0, _⟩ => show win1_5.index t (0 : Fin 2) * 128 + 1 * (y 0).val = (y 0).val; rw [(idx1 t).2.2.2.2.2.2.2.2.2.2.1]; omega
  | ⟨1, _⟩ => show win1_5.index t (1 : Fin 2) * 128 + 1 * (y 1).val = (y 1).val; rw [(idx1 t).2.2.2.2.2.2.2.2.2.2.2.1]; omega

/-- What the launch's result array holds in the end, as one function of the arrays the launch finds. -/
abbrev res1 (c : Dev nD) : Mat 100000 128 :=
  layer true 100000 (V c main_v41) (V c main_v31) (V c main_v43) (V c main_arg6) (V c main_v42) (V c main_arg8)

/-- What point `t` writes back is block `t` of that function: the body's value on the blocks is the step of the
    blocks, and the step of rows `10000 t …` reads those rows only. -/
theorem flushed1 (c : Dev nD) (t : Fin cfg1.N) :
    (dat1 V c).flushed 6 t = ((cfg1.win 6).blk t).view.read (Elt Ideal) (res1 V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  rw [Tile.pay1, blk1_3 V c t, blk1_4 V c t, blk1_5 V c t]
  funext y
  show layer true 10000 (iblk1 V c 0 t) (iblk1 V c 1 t) (iblk1 V c 2 t) (V c main_arg6) (V c main_v42) (V c main_arg8) (ix2 (y 0) (y 1))
    = res1 V c (((cfg1.win 6).blk t).view.emb y)
  have he : ((cfg1.win 6).blk t).view.emb y = ix2 (row1 t (y 0)) (y 1) := by
    funext a
    apply Fin.ext
    match a with
    | ⟨0, _⟩ => show win1_6.index t (0 : Fin 2) * 10000 + 1 * (y 0).val = t.val * 10000 + (y 0).val; rw [(idx1 t).2.2.2.2.2.2.2.2.2.2.2.2.1]; omega
    | ⟨1, _⟩ => show win1_6.index t (1 : Fin 2) * 128 + 1 * (y 1).val = (y 1).val; rw [(idx1 t).2.2.2.2.2.2.2.2.2.2.2.2.2]; omega
  rw [he]
  exact layer_rows true (row1 t) _ _ _ _ _ _ _ _ _ (blk1_0 V c t) (blk1_1 V c t) (blk1_2 V c t) (y 0) (y 1)

/-- The ten blocks cover the result array: row `r` is in the block of point `r / 10000`. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 10 := N_1
  have ht : (i 0).val / 10000 < cfg1.N := by omega
  refine ⟨⟨(i 0).val / 10000, ht⟩, flush1_6 _, ?_⟩
  show i ∈ ((View.whole main_v44).slice (win1_6.rect ⟨(i 0).val / 10000, ht⟩)).set
  rw [View.set_slice_whole, Rect.mem_set_unit]
  intro a
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    rw [(idx1 ⟨(i 0).val / 10000, ht⟩).2.2.2.2.2.2.2.2.2.2.2.2.1]
    show (i 0).val / 10000 * 10000 ≤ (i 0).val ∧ (i 0).val < (i 0).val / 10000 * 10000 + 10000
    omega
  | ⟨1, _⟩ =>
    show win1_6.index ⟨(i 0).val / 10000, ht⟩ (1 : Fin 2) * 128 ≤ (i 1).val
      ∧ (i 1).val < win1_6.index ⟨(i 0).val / 10000, ht⟩ (1 : Fin 2) * 128 + 128
    rw [(idx1 ⟨(i 0).val / 10000, ht⟩).2.2.2.2.2.2.2.2.2.2.2.2.2]
    omega

/-- The result array after the launch is the step of the arrays the launch finds. -/
theorem final1 (c : Dev nD) : (dat1 V c).arrAt 6 cfg1.N = res1 V c :=
  (dat1 V c).arrAt_eq_of_cover 6 (res1 V c) (fun t _ => flushed1 V c t) cover1

/-! ## Launch 2 -/

/-- The index maps over the grid: the three tall operands and the result move one block of 10000 rows per point; the
    weights and the bias stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of point `t`'s block is row `10000 t + p` of the array. -/
def row2 (t : Fin cfg2.N) (p : Fin 10000) : Fin 100000 :=
  ⟨t.val * 10000 + p.val, by have := t.isLt; have := p.isLt; have hN : cfg2.N = 10 := N_2; omega⟩

/-- The block of neighbour sums at point `t`: rows `10000 t …` of the array. -/
theorem blk2_0 (c : Dev nD) (t : Fin cfg2.N) (p : Fin 10000) (k : Fin 128) :
    (iblk2 V c 0 t : Mat 10000 128) (ix2 p k) = (V c main_v54 : Mat 100000 128) (ix2 (row2 t p) k) := by
  unfold iblk2
  rw [View.read_apply]
  show V c main_v54 _ = V c main_v54 _
  congr 1
  funext a
  apply Fin.ext
  match a with
  | ⟨0, _⟩ => show win2_0.index t (0 : Fin 2) * 10000 + 1 * p.val = t.val * 10000 + p.val; rw [(idx2 t).1]; omega
  | ⟨1, _⟩ => show win2_0.index t (1 : Fin 2) * 128 + 1 * k.val = k.val; rw [(idx2 t).2.1]; omega

/-- The block of node features at point `t`. -/
theorem blk2_1 (c : Dev nD) (t : Fin cfg2.N) (p : Fin 10000) (k : Fin 128) :
    (iblk2 V c 1 t : Mat 10000 128) (ix2 p k) = (V c main_v44 : Mat 100000 128) (ix2 (row2 t p) k) := by
  unfold iblk2
  rw [View.read_apply]
  show V c main_v44 _ = V c main_v44 _
  congr 1
  funext a
  apply Fin.ext
  match a with
  | ⟨0, _⟩ => show win2_1.index t (0 : Fin 2) * 10000 + 1 * p.val = t.val * 10000 + p.val; rw [(idx2 t).2.2.1]; omega
  | ⟨1, _⟩ => show win2_1.index t (1 : Fin 2) * 128 + 1 * k.val = k.val; rw [(idx2 t).2.2.2.1]; omega

/-- The block of reciprocal degrees at point `t`. -/
theorem blk2_2 (c : Dev nD) (t : Fin cfg2.N) (p : Fin 10000) :
    (iblk2 V c 2 t : Mat 10000 1) (ix2 p (0 : Fin 1)) = (V c main_v56 : Mat 100000 1) (ix2 (row2 t p) (0 : Fin 1)) := by
  unfold iblk2
  rw [View.read_apply]
  show V c main_v56 _ = V c main_v56 _
  congr 1
  funext a
  apply Fin.ext
  match a with
  | ⟨0, _⟩ => show win2_2.index t (0 : Fin 2) * 10000 + 1 * p.val = t.val * 10000 + p.val; rw [(idx2 t).2.2.2.2.1]; omega
  | ⟨1, _⟩ => show win2_2.index t (1 : Fin 2) * 1 + 1 * 0 = 0; rw [(idx2 t).2.2.2.2.2.1]

/-- The left weights' block is the whole matrix at every point. -/
theorem blk2_3 (c : Dev nD) (t : Fin cfg2.N) : (iblk2 V c 3 t : Mat 128 128) = V c main_arg9 := by
  funext y
  unfold iblk2
  rw [View.read_apply]
  show V c main_arg9 _ = V c main_arg9 y
  congr 1
  funext a
  apply Fin.ext
  match a with
  | ⟨0, _⟩ => show win2_3.index t (0 : Fin 2) * 128 + 1 * (y 0).val = (y 0).val; rw [(idx2 t).2.2.2.2.2.2.1]; omega
  | ⟨1, _⟩ => show win2_3.index t (1 : Fin 2) * 128 + 1 * (y 1).val = (y 1).val; rw [(idx2 t).2.2.2.2.2.2.2.1]; omega

/-- The bias row's block is the whole row at every point. -/
theorem blk2_4 (c : Dev nD) (t : Fin cfg2.N) : (iblk2 V c 4 t : Mat 1 128) = V c main_v55 := by
  funext y
  unfold iblk2
  rw [View.read_apply]
  show V c main_v55 _ = V c main_v55 y
  congr 1
  funext a
  apply Fin.ext
  match a with
  | ⟨0, _⟩ => show win2_4.index t (0 : Fin 2) * 1 + 1 * (y 0).val = (y 0).val; rw [(idx2 t).2.2.2.2.2.2.2.2.1]; omega
  | ⟨1, _⟩ => show win2_4.index t (1 : Fin 2) * 128 + 1 * (y 1).val = (y 1).val; rw [(idx2 t).2.2.2.2.2.2.2.2.2.1]; omega

/-- The right weights' block is the whole matrix at every point. -/
theorem blk2_5 (c : Dev nD) (t : Fin cfg2.N) : (iblk2 V c 5 t : Mat 128 128) = V c main_arg11 := by
  funext y
  unfold iblk2
  rw [View.read_apply]
  show V c main_arg11 _ = V c main_arg11 y
  congr 1
  funext a
  apply Fin.ext
  match a with
  | ⟨0, _⟩ => show win2_5.index t (0 : Fin 2) * 128 + 1 * (y 0).val = (y 0).val; rw [(idx2 t).2.2.2.2.2.2.2.2.2.2.1]; omega
  | ⟨1, _⟩ => show win2_5.index t (1 : Fin 2) * 128 + 1 * (y 1).val = (y 1).val; rw [(idx2 t).2.2.2.2.2.2.2.2.2.2.2.1]; omega

/-- What the launch's result array holds in the end, as one function of the arrays the launch finds. -/
abbrev res2 (c : Dev nD) : Mat 100000 128 :=
  layer false 100000 (V c main_v54) (V c main_v44) (V c main_v56) (V c main_arg9) (V c main_v55) (V c main_arg11)

/-- What point `t` writes back is block `t` of that function: the body's value on the blocks is the step of the
    blocks, and the step of rows `10000 t …` reads those rows only. -/
theorem flushed2 (c : Dev nD) (t : Fin cfg2.N) :
    (dat2 V c).flushed 6 t = ((cfg2.win 6).blk t).view.read (Elt Ideal) (res2 V c) := by
  show (cfg2.win 6).cut (grid2.coords t) ((dat2 V c).after 6 t) = _
  rw [after2_6]
  unfold out2_6
  rw [View.canon_unit_zero hz]
  simp only [View.ld_unit_zero (S := S10000x128) hz, View.ld_unit_zero (S := S10000x1) hz,
    View.ld_unit_zero (S := S128x128) hz, View.ld_unit_zero (S := S1x128) hz]
  rw [Tile.pay2, blk2_3 V c t, blk2_4 V c t, blk2_5 V c t]
  funext y
  show layer false 10000 (iblk2 V c 0 t) (iblk2 V c 1 t) (iblk2 V c 2 t) (V c main_arg9) (V c main_v55) (V c main_arg11) (ix2 (y 0) (y 1))
    = res2 V c (((cfg2.win 6).blk t).view.emb y)
  have he : ((cfg2.win 6).blk t).view.emb y = ix2 (row2 t (y 0)) (y 1) := by
    funext a
    apply Fin.ext
    match a with
    | ⟨0, _⟩ => show win2_6.index t (0 : Fin 2) * 10000 + 1 * (y 0).val = t.val * 10000 + (y 0).val; rw [(idx2 t).2.2.2.2.2.2.2.2.2.2.2.2.1]; omega
    | ⟨1, _⟩ => show win2_6.index t (1 : Fin 2) * 128 + 1 * (y 1).val = (y 1).val; rw [(idx2 t).2.2.2.2.2.2.2.2.2.2.2.2.2]; omega
  rw [he]
  exact layer_rows false (row2 t) _ _ _ _ _ _ _ _ _ (blk2_0 V c t) (blk2_1 V c t) (blk2_2 V c t) (y 0) (y 1)

/-- The ten blocks cover the result array: row `r` is in the block of point `r / 10000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 10 := N_2
  have ht : (i 0).val / 10000 < cfg2.N := by omega
  refine ⟨⟨(i 0).val / 10000, ht⟩, flush2_6 _, ?_⟩
  show i ∈ ((View.whole main_v57).slice (win2_6.rect ⟨(i 0).val / 10000, ht⟩)).set
  rw [View.set_slice_whole, Rect.mem_set_unit]
  intro a
  match a with
  | ⟨0, _⟩ =>
    show win2_6.index ⟨(i 0).val / 10000, ht⟩ (0 : Fin 2) * 10000 ≤ (i 0).val
      ∧ (i 0).val < win2_6.index ⟨(i 0).val / 10000, ht⟩ (0 : Fin 2) * 10000 + 10000
    rw [(idx2 ⟨(i 0).val / 10000, ht⟩).2.2.2.2.2.2.2.2.2.2.2.2.1]
    show (i 0).val / 10000 * 10000 ≤ (i 0).val ∧ (i 0).val < (i 0).val / 10000 * 10000 + 10000
    omega
  | ⟨1, _⟩ =>
    show win2_6.index ⟨(i 0).val / 10000, ht⟩ (1 : Fin 2) * 128 ≤ (i 1).val
      ∧ (i 1).val < win2_6.index ⟨(i 0).val / 10000, ht⟩ (1 : Fin 2) * 128 + 128
    rw [(idx2 ⟨(i 0).val / 10000, ht⟩).2.2.2.2.2.2.2.2.2.2.2.2.2]
    omega

/-- The result array after the launch is the step of the arrays the launch finds. -/
theorem final2 (c : Dev nD) : (dat2 V c).arrAt 6 cfg2.N = res2 V c :=
  (dat2 V c).arrAt_eq_of_cover 6 (res2 V c) (fun t _ => flushed2 V c t) cover2

end Cert.KernelIdeal.RegionValue

end
-- ==== Proof.RefLayers.lean ====
/-
  The reference's three dense steps, each as `SageDense.layer` of the reference's own earlier stages.

  The reference scales the neighbour sums by the reciprocal degree broadcast along the features (vector → column →
  matrix), multiplies by `Wl` transposed with a `dot_general`, adds the bias broadcast down the rows (vector → row →
  matrix), adds the node features times `Wr` transposed, and after the first two steps takes the maximum with a zero
  array. Entry by entry that is the dense step of: its neighbour sums, its node features, the reciprocal degrees as a
  column, the two weight matrices, and the bias as a row.
-/
import proofs.«124701_j35802847379700_2_alg».proof.Proof.Gen.ReferenceIdeal.Read
import proofs.«124701_j35802847379700_2_alg».proof.Proof.SageDense
import Idealize.ShloMosaic.Lib.Pipeline.Value

noncomputable section

namespace Cert.ReferenceIdeal.Layers

open Idealize.ShloMosaic Idealize.ShloMosaic.ValueIdx Cert.ReferenceIdeal Cert.ReferenceIdeal.Gen Cert.ReferenceIdeal.Read Cert.SageDense

/-- The sum the three steps share, in the host's spelling, is the step before the clamp. -/
theorem sum_eq (agg h : FVec Ideal S100000x128 .f32) (inv : FVec Ideal S100000 .f32) (Wl Wr : FVec Ideal S128x128 .f32)
    (bl : FVec Ideal S128 .f32) :
    addf (addf (Host.dotGeneral (F := Ideal) dot_S100000x128_S128x128_S100000x128_1_0_0_1_n_n none
          (mulf agg (broadcastInDim S100000x128 ![0, 1] bcast_S100000x1_S100000x128_0_1
            (broadcastInDim S100000x1 ![0] bcast_S100000_S100000x1_0 inv)))
          (transpose S128x128 [1, 0] Wl transposes_S128x128_S128x128_1_0))
        (broadcastInDim S100000x128 ![0, 1] bcast_S1x128_S100000x128_0_1 (broadcastInDim S1x128 ![1] bcast_S128_S1x128_1 bl)))
      (Host.dotGeneral (F := Ideal) dot_S100000x128_S128x128_S100000x128_1_0_0_1_n_n none h
        (transpose S128x128 [1, 0] Wr transposes_S128x128_S128x128_1_0))
    = pre 100000 agg h (colOf inv) Wl (rowOf bl) Wr :=
  host_eq (n := 100000) none agg h inv Wl Wr bl bcast_S100000_S100000x1_0 bcast_S100000x1_S100000x128_0_1 bcast_S128_S1x128_1
    bcast_S1x128_S100000x128_0_1 transposes_S128x128_S128x128_1_0

/-- The maximum with the zero array is the clamp below at 0. -/
theorem clamp_eq (s : FVec Ideal S100000x128 .f32) (agg h : Mat 100000 128) (inv : Mat 100000 1) (Wl Wr : Mat 128 128) (bl : Mat 1 128)
    (hs : s = pre 100000 agg h inv Wl bl Wr) :
    maximumf s (broadcastInDim S100000x128 ![] bcast_S_S100000x128 (constant (F := Ideal) S_ .f32 0x00000000#32))
      = layer true 100000 agg h inv Wl bl Wr := by
  subst hs
  funext j
  have hb : broadcastInDim S100000x128 ![] bcast_S_S100000x128 (constant (F := Ideal) S_ .f32 0x00000000#32) j
      = Ideal.ofBits .f32 0x00000000#32 :=
    broadcastInDim_apply _ bcast_S_S100000x128 _ j (fun a => a.elim0) (fun a => a.elim0)
  rw [maximumf_apply, hb, Ideal.ofBits_zero_f32]
  rfl

/-- The first step's output (after its clamp). -/
theorem step1 (x0 : (⟨S100000, .i32⟩ : BufTy).Contents (Elt Ideal)) (x1 : (⟨S2x800000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v40 (F := Ideal) x0 x1 x2 x3 x4 x5
      = layer true 100000 (val_main_v28 (F := Ideal) x0 x1 x2) (val_main_v6 (F := Ideal) x0 x2) (colOf (val_main_v18 (F := Ideal) x1)) x3 (rowOf x4) x5 := by
  unfold val_main_v40 val_main_v39 val_main_v36 val_main_v38 val_main_v33 val_main_v35 val_main_v34 val_main_v31 val_main_v30
    val_main_v29 val_main_v32 val_main_v37 val_main_call0_v0 val_main_call0_cst
  exact clamp_eq _ _ _ _ _ _ _ (sum_eq _ _ _ _ _ _)

/-- The second step's output (after its clamp). -/
theorem step2 (x0 : (⟨S100000, .i32⟩ : BufTy).Contents (Elt Ideal)) (x1 : (⟨S2x800000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) :
    val_main_v62 (F := Ideal) x0 x1 x2 x3 x4 x5 x6 x7 x8
      = layer true 100000 (val_main_v50 (F := Ideal) x0 x1 x2 x3 x4 x5) (val_main_v40 (F := Ideal) x0 x1 x2 x3 x4 x5)
          (colOf (val_main_v18 (F := Ideal) x1)) x6 (rowOf x7) x8 := by
  unfold val_main_v62 val_main_v61 val_main_v58 val_main_v60 val_main_v55 val_main_v57 val_main_v56 val_main_v53 val_main_v52
    val_main_v51 val_main_v54 val_main_v59 val_main_call1_v0 val_main_call1_cst
  exact clamp_eq _ _ _ _ _ _ _ (sum_eq _ _ _ _ _ _)

/-- The third step's output: the result (no clamp). -/
theorem step3 (x0 : (⟨S100000, .i32⟩ : BufTy).Contents (Elt Ideal)) (x1 : (⟨S2x800000, .i32⟩ : BufTy).Contents (Elt Ideal)) (x2 : (⟨S100000x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) :
    val_main_v83 (F := Ideal) x0 x1 x2 x3 x4 x5 x6 x7 x8 x9 x10 x11
      = layer false 100000 (val_main_v72 (F := Ideal) x0 x1 x2 x3 x4 x5 x6 x7 x8) (val_main_v62 (F := Ideal) x0 x1 x2 x3 x4 x5 x6 x7 x8)
          (colOf (val_main_v18 (F := Ideal) x1)) x9 (rowOf x10) x11 := by
  unfold val_main_v83 val_main_v80 val_main_v82 val_main_v77 val_main_v79 val_main_v78 val_main_v75 val_main_v74
    val_main_v73 val_main_v76 val_main_v81
  exact sum_eq _ _ _ _ _ _

end Cert.ReferenceIdeal.Layers

end
-- ==== Proof.KernelValue.lean ====
/-
  The kernel program's result buffer, read back to the arguments.

  The run's boundaries are: the launch memory; after the first stretch of host operations; after the first launch;
  after the second stretch; after the second launch; after the third stretch; after the third launch. At each boundary
  the buffers a later launch reads are written here as functions of the twelve arguments — as the reference's OWN stage
  functions of them, since the two programs' host operations are the same operations on the same operands: the gathered
  node features, the source and target node of every edge, the reciprocal in-degree, and each step's neighbour sums
  (a scatter-add, over the targets, of the rows gathered at the sources). A launch's result array is the dense step of
  the arrays it finds, and the reference's corresponding stage is the same dense step of the same arrays
  (`Layers.step1`, `step2`, `step3`), so the launches' results are the reference's stages too, and the program's
  result buffer ends at the reference's result as a function of the arguments.
-/
import proofs.«124701_j35802847379700_2_alg».proof.Proof.KernelRun
import proofs.«124701_j35802847379700_2_alg».proof.Proof.RegionValue
import proofs.«124701_j35802847379700_2_alg».proof.Proof.RefLayers
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.SageDense
open Cert.ReferenceIdeal.Read (val_main_v6 val_main_v8 val_main_v10 val_main_v18 val_main_v28 val_main_v40 val_main_v50 val_main_v62
  val_main_v72 val_main_v83)

variable (m : (ℓ : Loc nD τ sig) → Buf (Elt Ideal) ℓ) (ρ : Dev nD → PrngReg) (c : Dev nD)

/-! ## Before the first launch: the host operations' values of the arguments -/

theorem w1_v6 : W1 m ρ c (Proc.devRef .tc main_v6) = val_main_v6 (F := Ideal) (m ((c : Thread nD τ).loc main_arg0)) (m ((c : Thread nD τ).loc main_arg2)) := by
  show StableHlo.after hostOps0 (W0 m ρ c) (Proc.devRef .tc main_v6) = _
  after_results
  rfl

theorem w1_v8 : W1 m ρ c (Proc.devRef .tc main_v8) = val_main_v8 (F := Ideal) (m ((c : Thread nD τ).loc main_arg1)) := by
  show StableHlo.after hostOps0 (W0 m ρ c) (Proc.devRef .tc main_v8) = _
  after_results
  rfl

theorem w1_v10 : W1 m ρ c (Proc.devRef .tc main_v10) = val_main_v10 (F := Ideal) (m ((c : Thread nD τ).loc main_arg1)) := by
  show StableHlo.after hostOps0 (W0 m ρ c) (Proc.devRef .tc main_v10) = _
  after_results
  rfl

theorem w1_v18 : W1 m ρ c (Proc.devRef .tc main_v18) = val_main_v18 (F := Ideal) (m ((c : Thread nD τ).loc main_arg1)) := by
  show StableHlo.after hostOps0 (W0 m ρ c) (Proc.devRef .tc main_v18) = _
  after_results
  rfl

set_option maxHeartbeats 4000000 in
theorem w1_v28 : W1 m ρ c (Proc.devRef .tc main_v28) = val_main_v28 (F := Ideal) (m ((c : Thread nD τ).loc main_arg0)) (m ((c : Thread nD τ).loc main_arg1)) (m ((c : Thread nD τ).loc main_arg2)) := by
  show StableHlo.after hostOps0 (W0 m ρ c) (Proc.devRef .tc main_v28) = _
  after_results_simp
  rfl

theorem w1_v30 : W1 m ρ c (Proc.devRef .tc main_v30) = colOf (val_main_v18 (F := Ideal) (m ((c : Thread nD τ).loc main_arg1))) := by
  show StableHlo.after hostOps0 (W0 m ρ c) (Proc.devRef .tc main_v30) = _
  after_results
  exact shapeCast_col (val_main_v18 (F := Ideal) (m ((c : Thread nD τ).loc main_arg1))) _

theorem w1_v29 : W1 m ρ c (Proc.devRef .tc main_v29) = rowOf (m ((c : Thread nD τ).loc main_arg4)) := by
  show StableHlo.after hostOps0 (W0 m ρ c) (Proc.devRef .tc main_v29) = _
  after_results
  exact shapeCast_row (m ((c : Thread nD τ).loc main_arg4)) _

theorem w1_arg3 : W1 m ρ c (Proc.devRef .tc main_arg3) = (m ((c : Thread nD τ).loc main_arg3)) := by
  show StableHlo.after hostOps0 (W0 m ρ c) (Proc.devRef .tc main_arg3) = _
  after_results

theorem w1_arg5 : W1 m ρ c (Proc.devRef .tc main_arg5) = (m ((c : Thread nD τ).loc main_arg5)) := by
  show StableHlo.after hostOps0 (W0 m ρ c) (Proc.devRef .tc main_arg5) = _
  after_results

theorem w1_arg6 : W1 m ρ c (Proc.devRef .tc main_arg6) = (m ((c : Thread nD τ).loc main_arg6)) := by
  show StableHlo.after hostOps0 (W0 m ρ c) (Proc.devRef .tc main_arg6) = _
  after_results

theorem w1_arg7 : W1 m ρ c (Proc.devRef .tc main_arg7) = (m ((c : Thread nD τ).loc main_arg7)) := by
  show StableHlo.after hostOps0 (W0 m ρ c) (Proc.devRef .tc main_arg7) = _
  after_results

theorem w1_arg8 : W1 m ρ c (Proc.devRef .tc main_arg8) = (m ((c : Thread nD τ).loc main_arg8)) := by
  show StableHlo.after hostOps0 (W0 m ρ c) (Proc.devRef .tc main_arg8) = _
  after_results

theorem w1_arg9 : W1 m ρ c (Proc.devRef .tc main_arg9) = (m ((c : Thread nD τ).loc main_arg9)) := by
  show StableHlo.after hostOps0 (W0 m ρ c) (Proc.devRef .tc main_arg9) = _
  after_results

theorem w1_arg10 : W1 m ρ c (Proc.devRef .tc main_arg10) = (m ((c : Thread nD τ).loc main_arg10)) := by
  show StableHlo.after hostOps0 (W0 m ρ c) (Proc.devRef .tc main_arg10) = _
  after_results

theorem w1_arg11 : W1 m ρ c (Proc.devRef .tc main_arg11) = (m ((c : Thread nD τ).loc main_arg11)) := by
  show StableHlo.after hostOps0 (W0 m ρ c) (Proc.devRef .tc main_arg11) = _
  after_results

/-! ## After the first launch -/

/-- The first launch leaves the reference's first step in its result array. -/
theorem w2_v31 : W2 m ρ c (Proc.devRef .tc main_v31) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [Cert.ReferenceIdeal.Layers.step1]
  refine (W2_arr m ρ c 6).trans ?_
  rw [RegionValue.final0]
  show layer true 100000 (W1 m ρ c (Proc.devRef .tc main_v28)) (W1 m ρ c (Proc.devRef .tc main_v6)) (W1 m ρ c (Proc.devRef .tc main_v30))
    (W1 m ρ c (Proc.devRef .tc main_arg3)) (W1 m ρ c (Proc.devRef .tc main_v29)) (W1 m ρ c (Proc.devRef .tc main_arg5)) = _
  rw [w1_v28, w1_v6, w1_v30, w1_arg3, w1_v29, w1_arg5]

theorem w2_v8 : W2 m ρ c (Proc.devRef .tc main_v8) = val_main_v8 (F := Ideal) (m ((c : Thread nD τ).loc main_arg1)) :=
  (W2_of_ne m ρ c main_v8 (by decide)).trans (w1_v8 m ρ c)

theorem w2_v10 : W2 m ρ c (Proc.devRef .tc main_v10) = val_main_v10 (F := Ideal) (m ((c : Thread nD τ).loc main_arg1)) :=
  (W2_of_ne m ρ c main_v10 (by decide)).trans (w1_v10 m ρ c)

theorem w2_v18 : W2 m ρ c (Proc.devRef .tc main_v18) = val_main_v18 (F := Ideal) (m ((c : Thread nD τ).loc main_arg1)) :=
  (W2_of_ne m ρ c main_v18 (by decide)).trans (w1_v18 m ρ c)

theorem w2_arg6 : W2 m ρ c (Proc.devRef .tc main_arg6) = (m ((c : Thread nD τ).loc main_arg6)) :=
  (W2_of_ne m ρ c main_arg6 (by decide)).trans (w1_arg6 m ρ c)

theorem w2_arg7 : W2 m ρ c (Proc.devRef .tc main_arg7) = (m ((c : Thread nD τ).loc main_arg7)) :=
  (W2_of_ne m ρ c main_arg7 (by decide)).trans (w1_arg7 m ρ c)

theorem w2_arg8 : W2 m ρ c (Proc.devRef .tc main_arg8) = (m ((c : Thread nD τ).loc main_arg8)) :=
  (W2_of_ne m ρ c main_arg8 (by decide)).trans (w1_arg8 m ρ c)

theorem w2_arg9 : W2 m ρ c (Proc.devRef .tc main_arg9) = (m ((c : Thread nD τ).loc main_arg9)) :=
  (W2_of_ne m ρ c main_arg9 (by decide)).trans (w1_arg9 m ρ c)

theorem w2_arg10 : W2 m ρ c (Proc.devRef .tc main_arg10) = (m ((c : Thread nD τ).loc main_arg10)) :=
  (W2_of_ne m ρ c main_arg10 (by decide)).trans (w1_arg10 m ρ c)

theorem w2_arg11 : W2 m ρ c (Proc.devRef .tc main_arg11) = (m ((c : Thread nD τ).loc main_arg11)) :=
  (W2_of_ne m ρ c main_arg11 (by decide)).trans (w1_arg11 m ρ c)

/-! ## Before the second launch -/

set_option maxHeartbeats 4000000 in
theorem w3_v41 : W3 m ρ c (Proc.devRef .tc main_v41) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v41) = _
  after_results_simp
  rw [w2_v10, w2_v8, w2_v31]
  rfl

theorem w3_v31 : W3 m ρ c (Proc.devRef .tc main_v31) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v31) = _
  after_results
  exact w2_v31 m ρ c

theorem w3_v43 : W3 m ρ c (Proc.devRef .tc main_v43) = colOf (val_main_v18 (F := Ideal) (m ((c : Thread nD τ).loc main_arg1))) := by
  show StableHlo.after hostOps1 (W2 m ρ c) (Proc.devRef .tc main_v43) = _
  after_results
  rw [w2_v18]
  exact shapeCast_col (val_main_v18 (F := Ideal) (m ((c : Thread nD τ).loc main_arg1))) _

theorem w3_v42 : W3 m ρ c (Proc.devRef .tc main_v42) = rowOf (m ((c : Thread nD τ).loc main_arg7)) := by
  show StableHlo.after hostOps1 (W2 m ρ c) (Proc.devRef .tc main_v42) = _
  after_results
  rw [w2_arg7]
  exact shapeCast_row (m ((c : Thread nD τ).loc main_arg7)) _

theorem w3_arg6 : W3 m ρ c (Proc.devRef .tc main_arg6) = (m ((c : Thread nD τ).loc main_arg6)) := by
  show StableHlo.after hostOps1 (W2 m ρ c) (Proc.devRef .tc main_arg6) = _
  after_results
  exact w2_arg6 m ρ c

theorem w3_arg8 : W3 m ρ c (Proc.devRef .tc main_arg8) = (m ((c : Thread nD τ).loc main_arg8)) := by
  show StableHlo.after hostOps1 (W2 m ρ c) (Proc.devRef .tc main_arg8) = _
  after_results
  exact w2_arg8 m ρ c

theorem w3_v8 : W3 m ρ c (Proc.devRef .tc main_v8) = val_main_v8 (F := Ideal) (m ((c : Thread nD τ).loc main_arg1)) := by
  show StableHlo.after hostOps1 (W2 m ρ c) (Proc.devRef .tc main_v8) = _
  after_results
  exact w2_v8 m ρ c

theorem w3_v10 : W3 m ρ c (Proc.devRef .tc main_v10) = val_main_v10 (F := Ideal) (m ((c : Thread nD τ).loc main_arg1)) := by
  show StableHlo.after hostOps1 (W2 m ρ c) (Proc.devRef .tc main_v10) = _
  after_results
  exact w2_v10 m ρ c

theorem w3_v18 : W3 m ρ c (Proc.devRef .tc main_v18) = val_main_v18 (F := Ideal) (m ((c : Thread nD τ).loc main_arg1)) := by
  show StableHlo.after hostOps1 (W2 m ρ c) (Proc.devRef .tc main_v18) = _
  after_results
  exact w2_v18 m ρ c

theorem w3_arg9 : W3 m ρ c (Proc.devRef .tc main_arg9) = (m ((c : Thread nD τ).loc main_arg9)) := by
  show StableHlo.after hostOps1 (W2 m ρ c) (Proc.devRef .tc main_arg9) = _
  after_results
  exact w2_arg9 m ρ c

theorem w3_arg10 : W3 m ρ c (Proc.devRef .tc main_arg10) = (m ((c : Thread nD τ).loc main_arg10)) := by
  show StableHlo.after hostOps1 (W2 m ρ c) (Proc.devRef .tc main_arg10) = _
  after_results
  exact w2_arg10 m ρ c

theorem w3_arg11 : W3 m ρ c (Proc.devRef .tc main_arg11) = (m ((c : Thread nD τ).loc main_arg11)) := by
  show StableHlo.after hostOps1 (W2 m ρ c) (Proc.devRef .tc main_arg11) = _
  after_results
  exact w2_arg11 m ρ c

/-! ## After the second launch -/

/-- The second launch leaves the reference's second step in its result array. -/
theorem w4_v44 : W4 m ρ c (Proc.devRef .tc main_v44) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.ReferenceIdeal.Layers.step2]
  refine (W4_arr m ρ c 6).trans ?_
  rw [RegionValue.final1]
  show layer true 100000 (W3 m ρ c (Proc.devRef .tc main_v41)) (W3 m ρ c (Proc.devRef .tc main_v31)) (W3 m ρ c (Proc.devRef .tc main_v43))
    (W3 m ρ c (Proc.devRef .tc main_arg6)) (W3 m ρ c (Proc.devRef .tc main_v42)) (W3 m ρ c (Proc.devRef .tc main_arg8)) = _
  rw [w3_v41, w3_v31, w3_v43, w3_arg6, w3_v42, w3_arg8]

theorem w4_v8 : W4 m ρ c (Proc.devRef .tc main_v8) = val_main_v8 (F := Ideal) (m ((c : Thread nD τ).loc main_arg1)) :=
  (W4_of_ne m ρ c main_v8 (by decide)).trans (w3_v8 m ρ c)

theorem w4_v10 : W4 m ρ c (Proc.devRef .tc main_v10) = val_main_v10 (F := Ideal) (m ((c : Thread nD τ).loc main_arg1)) :=
  (W4_of_ne m ρ c main_v10 (by decide)).trans (w3_v10 m ρ c)

theorem w4_v18 : W4 m ρ c (Proc.devRef .tc main_v18) = val_main_v18 (F := Ideal) (m ((c : Thread nD τ).loc main_arg1)) :=
  (W4_of_ne m ρ c main_v18 (by decide)).trans (w3_v18 m ρ c)

theorem w4_arg9 : W4 m ρ c (Proc.devRef .tc main_arg9) = (m ((c : Thread nD τ).loc main_arg9)) :=
  (W4_of_ne m ρ c main_arg9 (by decide)).trans (w3_arg9 m ρ c)

theorem w4_arg10 : W4 m ρ c (Proc.devRef .tc main_arg10) = (m ((c : Thread nD τ).loc main_arg10)) :=
  (W4_of_ne m ρ c main_arg10 (by decide)).trans (w3_arg10 m ρ c)

theorem w4_arg11 : W4 m ρ c (Proc.devRef .tc main_arg11) = (m ((c : Thread nD τ).loc main_arg11)) :=
  (W4_of_ne m ρ c main_arg11 (by decide)).trans (w3_arg11 m ρ c)

/-! ## Before the third launch -/

set_option maxHeartbeats 4000000 in
theorem w5_v54 : W5 m ρ c (Proc.devRef .tc main_v54) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v54) = _
  after_results_simp
  rw [w4_v10, w4_v8, w4_v44]
  rfl

theorem w5_v44 : W5 m ρ c (Proc.devRef .tc main_v44) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v44) = _
  after_results
  exact w4_v44 m ρ c

theorem w5_v56 : W5 m ρ c (Proc.devRef .tc main_v56) = colOf (val_main_v18 (F := Ideal) (m ((c : Thread nD τ).loc main_arg1))) := by
  show StableHlo.after hostOps2 (W4 m ρ c) (Proc.devRef .tc main_v56) = _
  after_results
  rw [w4_v18]
  exact shapeCast_col (val_main_v18 (F := Ideal) (m ((c : Thread nD τ).loc main_arg1))) _

theorem w5_v55 : W5 m ρ c (Proc.devRef .tc main_v55) = rowOf (m ((c : Thread nD τ).loc main_arg10)) := by
  show StableHlo.after hostOps2 (W4 m ρ c) (Proc.devRef .tc main_v55) = _
  after_results
  rw [w4_arg10]
  exact shapeCast_row (m ((c : Thread nD τ).loc main_arg10)) _

theorem w5_arg9 : W5 m ρ c (Proc.devRef .tc main_arg9) = (m ((c : Thread nD τ).loc main_arg9)) := by
  show StableHlo.after hostOps2 (W4 m ρ c) (Proc.devRef .tc main_arg9) = _
  after_results
  exact w4_arg9 m ρ c

theorem w5_arg11 : W5 m ρ c (Proc.devRef .tc main_arg11) = (m ((c : Thread nD τ).loc main_arg11)) := by
  show StableHlo.after hostOps2 (W4 m ρ c) (Proc.devRef .tc main_arg11) = _
  after_results
  exact w4_arg11 m ρ c

/-! ## After the third launch: the result -/

/-- The third launch leaves the reference's result in the program's result buffer. -/
theorem w6_v57 : W6 m ρ c (Proc.devRef .tc main_v57) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.ReferenceIdeal.Layers.step3]
  refine (W6_arr m ρ c 6).trans ?_
  rw [RegionValue.final2]
  show layer false 100000 (W5 m ρ c (Proc.devRef .tc main_v54)) (W5 m ρ c (Proc.devRef .tc main_v44)) (W5 m ρ c (Proc.devRef .tc main_v56))
    (W5 m ρ c (Proc.devRef .tc main_arg9)) (W5 m ρ c (Proc.devRef .tc main_v55)) (W5 m ρ c (Proc.devRef .tc main_arg11)) = _
  rw [w5_v54, w5_v44, w5_v56, w5_arg9, w5_v55, w5_arg11]

end Cert.KernelIdeal.Chain

end
-- ==== Proof.lean ====
/-
  Three layers of a mean-aggregating graph network on 100000 nodes with 128 features and 800000 edges: a Pallas kernel
  program against its plain reference, equal over the extended reals.

  Both programs gather the node features `x = emb[node_id]`, read the source and target node of every edge, count each
  node's in-degree by a scatter-add of ones and take `inv = 1 / max(deg, 1)`. Each layer then sums, for every node,
  the feature rows of its in-neighbours (a gather at the sources scatter-added at the targets) and computes

      out = (agg · inv) · Wlᵀ + bl + h · Wrᵀ,        clamped below at 0 in the first two layers.

  The reference does this with two `dot_general`s over all 100000 rows. The kernel program leaves the gathers and
  scatter-adds on the host and runs the dense part as one launch per layer, ten blocks of 10000 rows each, on the
  matrix unit into zero accumulators. Entry by entry the two are the same sums of the same products in the same
  association — a product into a zero accumulator is the plain row-by-column sum, and row p of the dense step reads
  row p of its tall operands only, so ten blocks of rows make the whole array. No entry needs to be finite: only the
  commutative-monoid structure of sums is used. The host operations around the launches are the reference's own, on
  the same operands, so every intermediate array of the kernel program is the reference's corresponding stage as a
  function of the twelve arguments (Proof/KernelValue.lean), and so is the result.

  The frames are the generated ones (the reference's is its generated run with the result dropped); the
  idealization rewrote nothing, so `preserves` has no conjunct.
-/
import proofs.«124701_j35802847379700_2_alg».proof.Defs
import proofs.«124701_j35802847379700_2_alg».proof.Proof.Gen.Kernel
import proofs.«124701_j35802847379700_2_alg».proof.Proof.Gen.Kernel.Skeleton
import proofs.«124701_j35802847379700_2_alg».proof.Proof.Gen.Kernel.Launch
import proofs.«124701_j35802847379700_2_alg».proof.Proof.Gen.Kernel.Points
import proofs.«124701_j35802847379700_2_alg».proof.Proof.Gen.Kernel.Frame
import proofs.«124701_j35802847379700_2_alg».proof.Proof.Gen.KernelIdeal
import proofs.«124701_j35802847379700_2_alg».proof.Proof.Gen.KernelIdeal.Skeleton
import proofs.«124701_j35802847379700_2_alg».proof.Proof.Gen.KernelIdeal.Launch
import proofs.«124701_j35802847379700_2_alg».proof.Proof.Gen.KernelIdeal.Points
import proofs.«124701_j35802847379700_2_alg».proof.Proof.Gen.KernelIdeal.Frame
import proofs.«124701_j35802847379700_2_alg».proof.Proof.Gen.ReferenceIdeal
import proofs.«124701_j35802847379700_2_alg».proof.Proof.Gen.ReferenceIdeal.Run
import proofs.«124701_j35802847379700_2_alg».proof.Proof.Gen.ReferenceIdeal.Read
import proofs.«124701_j35802847379700_2_alg».proof.Proof.Gen.Pre_finite_inputs
import proofs.«124701_j35802847379700_2_alg».proof.Proof.KernelRun
import proofs.«124701_j35802847379700_2_alg».proof.Proof.KernelValue
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the reference's result as
    a function of the twelve arguments — the kernel program's by reading its run back launch by launch, the
    reference's by its generated run. -/
theorem algebraic : Cert.algebraic_KernelIdeal_ReferenceIdeal := by
  intro m ρ m' ρ' _ hagree
  refine ⟨fun c => Cert.ReferenceIdeal.Read.val_main_v83 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.w6_v57 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v83_eq]
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
